-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S512x4096 : Shape := ⟨2, ![512, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .bf16⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x4096.size a
  hwx2_0 : ∀ i : grid2.Coords, EltTy.bits .bf16 = 32 ∨ (Rect.block (s := S8192x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x4096.size a
  hwx2_1 : ∀ i : grid2.Coords, EltTy.bits .bf16 = 32 ∨ (Rect.block (s := S4096x4096) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x4096.size a
  hwx2_3 : ∀ i : grid2.Coords, EltTy.bits .f32 = 32 ∨ (Rect.block (s := S8192x4096) S1024x1024.size (cc2_transform_3 i) (hinb2_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S8192x4096, .f32⟩
  | .hbm, ⟨5, _⟩ => ⟨S8192x4096, .i1⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.FrameB.R0.lean ====
/-
  The binarizing pass number 0 of the program (a grid of row blocks of 512 rows, each block read whole, each entry replaced
  by 1 where it is at least 0 and by -1 elsewhere, the result narrowed to the 16-bit format and stored whole),
  as one region of the program entered at buffer contents V: what the staging buffer of the result holds after the
  body at a grid point (the one store's value, a function of the input block), the body's Hoare triple by symbolic
  execution, the pipeline's proof data (inputs at their blocks, the output at that value; nothing carried from point
  to point), and the body obligation at every point.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 4096 rectangle, the body's only access shape. -/
abbrev r0_0 : Rect S512x4096 := Rect.unit (s := S512x4096) ![0, 0] S512x4096.size inb_S512x4096_S512x4096_0_0

/-- What the body leaves in the result's staging buffer: its one whole-block store of the binarized, narrowed input block. -/
def out0_1 (x0 : Vec F S512x4096 .f32) : Vec F S512x4096 .bf16 :=
  View.canon [⟨r0_0, k0_pay1 (View.ld x0 r0_0)⟩]

/-- The one store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers, the input's at contents x0 and the output's at anything, runs to the
    continuation with the input's unchanged and the output's at out0_1 x0. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_kernel i arg1 harg1 arg2 harg2) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this pipeline on core c: the arrays as the region finds them; after the body at point t the
    input's buffer at its block and the output's at out0_1 of it; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameB.R1.lean ====
/-
  The binarizing pass number 1 of the program (a grid of row blocks of 512 rows, each block read whole, each entry replaced
  by 1 where it is at least 0 and by -1 elsewhere, the result narrowed to the 16-bit format and stored whole),
  as one region of the program entered at buffer contents V: what the staging buffer of the result holds after the
  body at a grid point (the one store's value, a function of the input block), the body's Hoare triple by symbolic
  execution, the pipeline's proof data (inputs at their blocks, the output at that value; nothing carried from point
  to point), and the body obligation at every point.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 512 × 4096 rectangle, the body's only access shape. -/
abbrev r1_0 : Rect S512x4096 := Rect.unit (s := S512x4096) ![0, 0] S512x4096.size inb_S512x4096_S512x4096_0_0

/-- What the body leaves in the result's staging buffer: its one whole-block store of the binarized, narrowed input block. -/
def out1_1 (x0 : Vec F S512x4096 .f32) : Vec F S512x4096 .bf16 :=
  View.canon [⟨r1_0, k1_pay1 (View.ld x0 r1_0)⟩]

/-- The one store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The body on whole staging buffers, the input's at contents x0 and the output's at anything, runs to the
    continuation with the input's unchanged and the output's at out1_1 x0. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this pipeline on core c: the arrays as the region finds them; after the body at point t the
    input's buffer at its block and the output's at out1_1 of it; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameB.R2s.lean ====
/-
  The matrix-product pass of the program (a grid of 8 × 4 × 8 points: row block, column block, and block k of the
  contracted axis innermost) as one region entered at buffer contents V — the part its three control cases share.
  At k = 0 the body first zeroes its accumulator (a scratch buffer kept from point to point); at every point it adds
  the product of the two 1024 × 512 input blocks to the accumulator; at k = 7 it also stores accumulator + bias row
  into the output block, which is written back only there. Stated here: the two branch conditions in closed form
  over the grid, where the output window is idle, the memrefs the body is called with, and the class invariant
  with the scratch buffer split out.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first branch condition (k = 0), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch condition (k = 7). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 7 the body stores nothing into the output window and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- One staging buffer of the output window, through which its contents are stated. -/
abbrev VO2_3 : View sig .tc .vmem S1024x1024 .f32 := (Memref.whole cc2_stg3_0 : Memref sig .tc .vmem S1024x1024 .f32).view
/-- Each window's current staging memref at point t, as the pipeline passes it, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried between points. -/
abbrev scM2 : Memref sig .tc .vmem S1024x1024 .f32 := Memref.whole cc2_scratch0
abbrev VS2 : View sig .tc .vmem S1024x1024 .f32 := scM2.view

/-- A scoped buffer the region never touches, whole at some contents. -/
abbrev oth (c : Dev nD) (b : Ref sig .tc) : sProp 𝕄 :=
  iprop(∃ f : Buf (Elt F) ((c : Thread nD τ).loc b), ((c : Thread nD τ).loc b) ↦{fullShare} f)

/-- The class invariant with the accumulator as a memref owned at some contents: the other two passes' staging
    buffers at anything, the accumulator at anything, the generator register at some state. -/
theorem PhiA2_eq (c : Dev nD) :
    (Pipeline.ΦA spec2 c : sProp 𝕄)
      = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1
          ∗ (∃ d, owns (c : Thread nD τ) scM2 fullShare d)) ∗ (∃ r, prngReg c r)) := by
  unfold Pipeline.ΦA; rw [scopedRest2_eq]; simp only [scM2, owns_whole]; try rfl

end Cert.Kernel.Hand

end
-- ==== Proof.FrameB.R2r.lean ====
/-
  The three whole-body runs of the matrix-product pass, one per control case, by symbolic execution: on whole staging
  buffers — the two input blocks and the bias row at their contents, the output block at the contents it is handed
  back with (cases k = 0 and 0 < k < 7, which do not store into it) or at anything (case k = 7), the accumulator at
  anything (k = 0) or at what the point before left — the body runs to the continuation with the inputs unchanged and
  the stores into the accumulator and the output recorded as lists of pieces, which the run itself finds.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import proofs.«157190_j81063212745346_2_alg».proof.Proof.FrameB.R2s
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 0: the accumulator is zeroed, then the first product is added to it; nothing is stored into the output. -/
noncomputable def kernelRun2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case 0 < k < 7: the product is added to the accumulator; nothing is stored into the output. -/
noncomputable def kernelRun2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case k = 7: the last product is added to the accumulator, and accumulator + bias row is stored into the output. -/
noncomputable def kernelRun2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Hand

end
-- ==== Proof.FrameB.R2.lean ====
/-
  The matrix-product pass as one region entered at buffer contents V: what the accumulator holds after each grid
  point (by recursion on the point: at k = 0 the first product over a zeroed accumulator, afterwards the point's
  product added to what the point before left), what the output block holds at the points k = 7 (that accumulator
  plus the bias row), the invariant that carries the accumulator from point to point, the pipeline's proof data,
  and the body obligation at every point, by cases on the point's position modulo 8.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import proofs.«157190_j81063212745346_2_alg».proof.Proof.FrameB.R2r
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output -/

theorem scover2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
/-- What case k = 0 leaves in the accumulator: its stores read back. -/
def sout2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).2.1)

theorem scover2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) (y : S1024x1024.Idx) :
    ∃ pc ∈ (kernelRun2_B c i arg3 harg3 arg4 harg4 arg5 harg5 arg6 harg6 arg7 harg7 hc0 hc1 x0 x1 x2 xs).2.1, y ∈ pc.1.set :=
  View.cover_of_tiledL (kernelRun2_B c i arg3 harg3 arg4 harg4 arg5 harg5 arg6 harg6 arg7 harg7 hc0 hc1 x0 x1 x2 xs).2.1 S1024x1024.size (by sl_kernel_rfl) y
/-- What case 0 < k < 7 leaves in the accumulator. -/
def sout2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs).2.1)

theorem scover2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S1024x1024.size (by sl_kernel_rfl) y
/-- What case k = 7 leaves in the accumulator. -/
def sout2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs).2.1)
theorem cover2_C_3 (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S1024x1024.size (by sl_kernel_rfl) y
/-- What case k = 7 leaves in the output block's staging buffer. -/
def out2_C_3 (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs).1)

/-! ## The accumulator after each point -/

/-- THE ACCUMULATION: what the accumulator holds after the body at position n. -/
def sAt2 (c : Dev nD) : (n : ℕ) → n < cfg2.N → Vec F S1024x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      if h1 : (n + 1) % 8 = 7 then
        False.elim (by omega)
      else
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 8 = 7 then
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (sAt2 c n (Nat.lt_of_succ_lt hn))
      else
        sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (sAt2 c n (Nat.lt_of_succ_lt hn))

theorem sAt2_A (c : Dev nD) (t : Fin cfg2.N) (h0 : t.val % 8 = 0) (h1 : ¬t.val % 8 = 7) :
    sAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

theorem sAt2_B (c : Dev nD) (t : Fin cfg2.N) (h0 : ¬t.val % 8 = 0) (h1 : ¬t.val % 8 = 7) :
    sAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (sAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem sAt2_C (c : Dev nD) (t : Fin cfg2.N) (h0 : ¬t.val % 8 = 0) (h1 : t.val % 8 = 7) :
    sAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (sAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at the points k = 7, accumulator + bias;
    elsewhere the body stores nothing there and the value is never consulted. -/
def oAt2 (c : Dev nD) (t : Fin cfg2.N) : Vec F S1024x1024 .f32 :=
  if h1 : t.val % 8 = 7 then
    out2_C_3 c (grid2.coords t) (ms2_0 t) (hs2_0 t) (ms2_1 t) (hs2_1 t) (ms2_2 t) (hs2_2 t) (ms2_3 t) (hs2_3 t) scM2 (Memref.isWhole_whole _) (fun h => (fun h0 => by omega) ((hcond2_0 t).mp h)) ((hcond2_1 t).mpr h1) (iblk2 V c 0 t) (iblk2 V c 1 t) (iblk2 V c 2 t) (sAt2 V c (t.val - 1) (Nat.lt_of_le_of_lt (Nat.sub_le _ _) t.isLt))
  else VO2_3.read (Elt F) VO2_3.junk

theorem oAt2_C (c : Dev nD) (t : Fin cfg2.N) (h0 : ¬t.val % 8 = 0) (h1 : t.val % 8 = 7) :
    oAt2 V c t = out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (sAt2 V c (t.val - 1) (Nat.lt_of_le_of_lt (Nat.sub_le _ _) t.isLt)) := by
  unfold oAt2; exact dif_pos h1

/-! ## The invariant -/

/-- Before position n: at the first point the class invariant (the accumulator at anything); afterwards the untouched
    scoped buffers at anything, the accumulator at what the point before left, the generator register at some state. -/
def PhiS2 (c : Dev nD) : (n : ℕ) → n ≤ cfg2.N → sProp 𝕄
  | 0, _ => Pipeline.ΦA spec2 c
  | n + 1, hn => iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c n hn)) ∗ (∃ r, prngReg c r)) := rfl
theorem PhiS2_pos (c : Dev nD) (n : ℕ) (h : n ≤ cfg2.N) (hz : n ≠ 0) :
    PhiS2 V c n h = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c (n - 1) (by omega))) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = oAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the
    invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [sAt2_A V c t h0 h1]
    unfold sout2_A; (try dsimp only)
    by_cases hz : t.val = 0
    · rw [PhiS2_castSucc V c t, PhiS2_zero V c _ _ hz, PhiA2_eq]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [sAt2_C V c t h0 h1, oAt2_C V c t h0 h1]
      unfold out2_C_3 sout2_C; (try dsimp only)
      rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [sAt2_B V c t h0 h1]
      unfold sout2_B; (try dsimp only)
      rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨O1, O2, O3, O4, O5, O6, O7, O8, HS⟩, Hg⟩
  isplitl [O1 O2 O3 O4 O5 O6 O7 O8 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexists _; iexact HS
  iexact Hg

end Cert.Kernel.Hand

end
-- ==== Proof.FrameB.Run.lean ====
/-
  The whole program as a run: two binarizing passes, the reshape of the bias vector into a row, and the
  matrix-product pass, in that order. Stated here: the contents of every unscoped buffer at each boundary between
  them (each pass changes only its own output array, to what its write-backs leave; the reshape writes only the bias
  row), the three passes as segments of the run around the thread state "every unscoped buffer at the boundary's
  contents, the generator register at some state, nothing owed", and the run itself: every weakly fair execution
  terminates without fault, the output array ends at what the last pass's write-backs leave, and the three argument
  arrays end as launched.
-/
import proofs.«157190_j81063212745346_2_alg».proof.Proof.Gen.Kernel.Launch
import proofs.«157190_j81063212745346_2_alg».proof.Proof.Gen.Kernel.Skeleton
import proofs.«157190_j81063212745346_2_alg».proof.Proof.Gen.Kernel.Points
import proofs.«157190_j81063212745346_2_alg».proof.Proof.Gen.Kernel.Regions
import proofs.«157190_j81063212745346_2_alg».proof.Proof.FrameB.R0
import proofs.«157190_j81063212745346_2_alg».proof.Proof.FrameB.R1
import proofs.«157190_j81063212745346_2_alg».proof.Proof.FrameB.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
abbrev U0 : (c : Dev nD) → (b : Ref sig .tc) → Buf (Elt F) ((c : Thread nD τ).loc b) := fun c b => W0 m c b

/-- After pass 0: its arrays at what the pipeline leaves (the inputs as entered, the output's write-backs folded),
    every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After pass 1: its arrays at what the pipeline leaves (the inputs as entered, the output's write-backs folded),
    every other buffer as entered. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the reshape of the bias vector. -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b

/-- After pass 2: its arrays at what the pipeline leaves (the inputs as entered, the output's write-backs folded),
    every other buffer as entered. -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

theorem W3_of (c : Dev nD) (r : Ref sig .tc) (h : r ∉ hostOps2_W) : W3 m c r = W2 m c r :=
  StableHlo.after_of_writes_sub hostOps2 _ hostOps2_writes h

/-! ## The arguments end as launched, and the output at what the last pass leaves -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat1 (U1 m) c).arrAt_in 0 rfl _).trans (A_eq1 (U1 m) c 0))
    _ = W0 m c (Proc.devRef .tc main_arg1) := W1_of_ne m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W4_main_v3 (c : Dev nD) : W4 m c (Proc.devRef .tc main_v3) = (dat2 (U3 m) c).arrAt 3 cfg2.N :=
  W4_arr m c 3

/-! ## The proof data family and the thread state -/

abbrev adm : (p : Fin 3) → (pcfgs (F := F) p).Adm := fun p => (cfgs p).toPCfg_adm
/-- Every pass's proof data, each at its entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The passes as segments -/

set_option backward.isDefEq.respectTransparency.types false in
/-- Pass 0 over the thread state: entered from every unscoped buffer at the contents before it, left at the contents
    after it; its arrays split out of the unscoped buffers and put back at what its write-backs leave; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered from every unscoped buffer at the contents before it, left at the contents
    after it; its arrays split out of the unscoped buffers and put back at what its write-backs leave; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at the contents before it, left at the contents
    after it; its arrays split out of the unscoped buffers and put back at what its write-backs leave; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U3 m) c)
    unfold Pipeline.ΦA
    iintro ⟨Hp, -, Hr⟩
    isplitl [Hr]; · iexact Hr
    iexact Hp
  hout c := by
    rw [Pipeline.ownSems0_none]
    refine (hout2 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting; the output array ends at what the matrix-product pass's write-backs leave, the arguments as launched. -/
theorem run : θ_run defs (onTc (τ := τ) (main (F := F))) ⟨m, fun _ => 0, ρ⟩ (fun r => ∀ c : Dev nD,
      r.2.mem ((c.tc : Thread nD τ).loc main_v3) = (dat2 (U3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_main_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Hand

end
-- ==== Proof.FrameI.R0.lean ====
/-
  The binarizing pass number 0 of the program (a grid of row blocks of 512 rows, each block read whole, each entry replaced
  by 1 where it is at least 0 and by -1 elsewhere, the result narrowed to the 16-bit format and stored whole),
  as one region of the program entered at buffer contents V: what the staging buffer of the result holds after the
  body at a grid point (the one store's value, a function of the input block), the body's Hoare triple by symbolic
  execution, the pipeline's proof data (inputs at their blocks, the output at that value; nothing carried from point
  to point), and the body obligation at every point.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512 × 4096 rectangle, the body's only access shape. -/
abbrev r0_0 : Rect S512x4096 := Rect.unit (s := S512x4096) ![0, 0] S512x4096.size inb_S512x4096_S512x4096_0_0

/-- What the body leaves in the result's staging buffer: its one whole-block store of the binarized, narrowed input block. -/
def out0_1 (x0 : Vec F S512x4096 .f32) : Vec F S512x4096 .bf16 :=
  View.canon [⟨r0_0, k0_pay1 (View.ld x0 r0_0)⟩]

/-- The one store covers the buffer. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers, the input's at contents x0 and the output's at anything, runs to the
    continuation with the input's unchanged and the output's at out0_1 x0. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__cast_kernel i arg1 harg1 arg2 harg2) K := by
  simp only [cc0__cast_kernel_eq_skeleton]; unfold cc0__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this pipeline on core c: the arrays as the region finds them; after the body at point t the
    input's buffer at its block and the output's at out0_1 of it; the class invariant (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameI.R1.lean ====
/-
  The binarizing pass number 1 of the program (a grid of row blocks of 512 rows, each block read whole, each entry replaced
  by 1 where it is at least 0 and by -1 elsewhere, the result narrowed to the 16-bit format and stored whole),
  as one region of the program entered at buffer contents V: what the staging buffer of the result holds after the
  body at a grid point (the one store's value, a function of the input block), the body's Hoare triple by symbolic
  execution, the pipeline's proof data (inputs at their blocks, the output at that value; nothing carried from point
  to point), and the body obligation at every point.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 512 × 4096 rectangle, the body's only access shape. -/
abbrev r1_0 : Rect S512x4096 := Rect.unit (s := S512x4096) ![0, 0] S512x4096.size inb_S512x4096_S512x4096_0_0

/-- What the body leaves in the result's staging buffer: its one whole-block store of the binarized, narrowed input block. -/
def out1_1 (x0 : Vec F S512x4096 .f32) : Vec F S512x4096 .bf16 :=
  View.canon [⟨r1_0, k1_pay1 (View.ld x0 r1_0)⟩]

/-- The one store covers the buffer. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

set_option maxHeartbeats 1000000 in
/-- The body on whole staging buffers, the input's at contents x0 and the output's at anything, runs to the
    continuation with the input's unchanged and the output's at out1_1 x0. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__cast_kernel i arg1 harg1 arg2 harg2) K := by
  simp only [cc1__cast_kernel_eq_skeleton]; unfold cc1__cast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this pipeline on core c: the arrays as the region finds them; after the body at point t the
    input's buffer at its block and the output's at out1_1 of it; the class invariant (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameI.R2s.lean ====
/-
  The matrix-product pass of the program (a grid of 8 × 4 × 8 points: row block, column block, and block k of the
  contracted axis innermost) as one region entered at buffer contents V — the part its three control cases share.
  At k = 0 the body first zeroes its accumulator (a scratch buffer kept from point to point); at every point it adds
  the product of the two 1024 × 512 input blocks to the accumulator; at k = 7 it also stores accumulator + bias row
  into the output block, which is written back only there. Stated here: the two branch conditions in closed form
  over the grid, where the output window is idle, the memrefs the body is called with, and the class invariant
  with the scratch buffer split out.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not (unfetched, the
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's first branch condition (k = 0), from the grid coordinates. -/
abbrev cond2_0 (i : grid2.Coords) : Prop := (Scalar.cmpi .ne (Scalar.extui (Scalar.cmpi .eq (BitVec.ofNat 32 (i 2).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)
/-- The body's second branch condition (k = 7). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Where k ≠ 7 the body stores nothing into the output window and the pipeline does not write it back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-- One staging buffer of the output window, through which its contents are stated. -/
abbrev VO2_3 : View sig .tc .vmem S1024x1024 .f32 := (Memref.whole cc2_stg3_0 : Memref sig .tc .vmem S1024x1024 .f32).view
/-- Each window's current staging memref at point t, as the pipeline passes it, and its wholeness. -/
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried between points. -/
abbrev scM2 : Memref sig .tc .vmem S1024x1024 .f32 := Memref.whole cc2_scratch0
abbrev VS2 : View sig .tc .vmem S1024x1024 .f32 := scM2.view

/-- A scoped buffer the region never touches, whole at some contents. -/
abbrev oth (c : Dev nD) (b : Ref sig .tc) : sProp 𝕄 :=
  iprop(∃ f : Buf (Elt F) ((c : Thread nD τ).loc b), ((c : Thread nD τ).loc b) ↦{fullShare} f)

/-- The class invariant with the accumulator as a memref owned at some contents: the other two passes' staging
    buffers at anything, the accumulator at anything, the generator register at some state. -/
theorem PhiA2_eq (c : Dev nD) :
    (Pipeline.ΦA spec2 c : sProp 𝕄)
      = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1
          ∗ (∃ d, owns (c : Thread nD τ) scM2 fullShare d)) ∗ (∃ r, prngReg c r)) := by
  unfold Pipeline.ΦA; rw [scopedRest2_eq]; simp only [scM2, owns_whole]; try rfl

end Cert.KernelIdeal.Hand

end
-- ==== Proof.FrameI.R2r.lean ====
/-
  The three whole-body runs of the matrix-product pass, one per control case, by symbolic execution: on whole staging
  buffers — the two input blocks and the bias row at their contents, the output block at the contents it is handed
  back with (cases k = 0 and 0 < k < 7, which do not store into it) or at anything (case k = 7), the accumulator at
  anything (k = 0) or at what the point before left — the body runs to the continuation with the inputs unchanged and
  the stores into the accumulator and the output recorded as lists of pieces, which the run itself finds.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import proofs.«157190_j81063212745346_2_alg».proof.Proof.FrameI.R2s
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 0: the accumulator is zeroed, then the first product is added to it; nothing is stored into the output. -/
noncomputable def kernelRun2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case 0 < k < 7: the product is added to the accumulator; nothing is stored into the output. -/
noncomputable def kernelRun2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨[], ?_, fun xi3 E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Case k = 7: the last product is added to the accumulator, and accumulator + bias row is stored into the output. -/
noncomputable def kernelRun2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc2__matmul_kernel i arg3 harg3 arg4 harg4 arg5 harg5 arg6 harg6 arg7 harg7) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Hand

end
-- ==== Proof.FrameI.R2.lean ====
/-
  The matrix-product pass as one region entered at buffer contents V: what the accumulator holds after each grid
  point (by recursion on the point: at k = 0 the first product over a zeroed accumulator, afterwards the point's
  product added to what the point before left), what the output block holds at the points k = 7 (that accumulator
  plus the bias row), the invariant that carries the accumulator from point to point, the pipeline's proof data,
  and the body obligation at every point, by cases on the point's position modulo 8.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import proofs.«157190_j81063212745346_2_alg».proof.Proof.FrameI.R2r
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the accumulator and in the output -/

theorem scover2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y
/-- What case k = 0 leaves in the accumulator: its stores read back. -/
def sout2_A (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) : Vec F S1024x1024 .f32 :=
  VS2.read (Elt F) (VS2.writes (Elt F) VS2.junk (kernelRun2_A c i arg3 harg3 arg4 harg4 arg5 harg5 arg6 harg6 arg7 harg7 hc0 hc1 x0 x1 x2).2.1)

theorem scover2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) (y : S1024x1024.Idx) :
    ∃ pc ∈ (kernelRun2_B c i arg3 harg3 arg4 harg4 arg5 harg5 arg6 harg6 arg7 harg7 hc0 hc1 x0 x1 x2 xs).2.1, y ∈ pc.1.set :=
  View.cover_of_tiledL (kernelRun2_B c i arg3 harg3 arg4 harg4 arg5 harg5 arg6 harg6 arg7 harg7 hc0 hc1 x0 x1 x2 xs).2.1 S1024x1024.size (by sl_kernel_rfl) y
/-- What case 0 < k < 7 leaves in the accumulator. -/
def sout2_B (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) : Vec F S1024x1024 .f32 :=
  VS2.read (Elt F) (VS2.writes (Elt F) VS2.junk (kernelRun2_B c i arg3 harg3 arg4 harg4 arg5 harg5 arg6 harg6 arg7 harg7 hc0 hc1 x0 x1 x2 xs).2.1)

theorem scover2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).2.1, y ∈ pc.1.set :=
  View.cover_of_tiledL (kernelRun2_C c i arg3 harg3 arg4 harg4 arg5 harg5 arg6 harg6 arg7 harg7 hc0 hc1 x0 x1 x2 xs).2.1 S1024x1024.size (by sl_kernel_rfl) y
/-- What case k = 7 leaves in the accumulator. -/
def sout2_C (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) : Vec F S1024x1024 .f32 :=
  VS2.read (Elt F) (VS2.writes (Elt F) VS2.junk (kernelRun2_C c i arg3 harg3 arg4 harg4 arg5 harg5 arg6 harg6 arg7 harg7 hc0 hc1 x0 x1 x2 xs).2.1)
theorem cover2_C_3 (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) (y : S1024x1024.Idx) :
    ∃ pc ∈ (kernelRun2_C c i arg3 harg3 arg4 harg4 arg5 harg5 arg6 harg6 arg7 harg7 hc0 hc1 x0 x1 x2 xs).1, y ∈ pc.1.set :=
  View.cover_of_tiledL (kernelRun2_C c i arg3 harg3 arg4 harg4 arg5 harg5 arg6 harg6 arg7 harg7 hc0 hc1 x0 x1 x2 xs).1 S1024x1024.size (by sl_kernel_rfl) y
/-- What case k = 7 leaves in the output block's staging buffer. -/
def out2_C_3 (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs).1)

/-! ## The accumulator after each point -/

/-- THE ACCUMULATION: what the accumulator holds after the body at position n. -/
def sAt2 (c : Dev nD) : (n : ℕ) → n < cfg2.N → Vec F S1024x1024 .f32
  | 0, hn => sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩)
  | n + 1, hn =>
    if h0 : (n + 1) % 8 = 0 then
      if h1 : (n + 1) % 8 = 7 then
        False.elim (by omega)
      else
        sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩)
    else
      if h1 : (n + 1) % 8 = 7 then
        sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (sAt2 c n (Nat.lt_of_succ_lt hn))
      else
        sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (sAt2 c n (Nat.lt_of_succ_lt hn))

theorem sAt2_A (c : Dev nD) (t : Fin cfg2.N) (h0 : t.val % 8 = 0) (h1 : ¬t.val % 8 = 7) :
    sAt2 V c t.val t.isLt = sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t) := by
  obtain ⟨n, hn⟩ := t
  cases n with
  | zero => exact rfl
  | succ n => exact (dif_pos h0).trans ((dif_neg h1).trans rfl)

theorem sAt2_B (c : Dev nD) (t : Fin cfg2.N) (h0 : ¬t.val % 8 = 0) (h1 : ¬t.val % 8 = 7) :
    sAt2 V c t.val t.isLt = sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (sAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem sAt2_C (c : Dev nD) (t : Fin cfg2.N) (h0 : ¬t.val % 8 = 0) (h1 : t.val % 8 = 7) :
    sAt2 V c t.val t.isLt = sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (sAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point t: at the points k = 7, accumulator + bias;
    elsewhere the body stores nothing there and the value is never consulted. -/
def oAt2 (c : Dev nD) (t : Fin cfg2.N) : Vec F S1024x1024 .f32 :=
  if h1 : t.val % 8 = 7 then
    out2_C_3 c (grid2.coords t) (ms2_0 t) (hs2_0 t) (ms2_1 t) (hs2_1 t) (ms2_2 t) (hs2_2 t) (ms2_3 t) (hs2_3 t) scM2 (Memref.isWhole_whole _) (fun h => (fun h0 => by omega) ((hcond2_0 t).mp h)) ((hcond2_1 t).mpr h1) (iblk2 V c 0 t) (iblk2 V c 1 t) (iblk2 V c 2 t) (sAt2 V c (t.val - 1) (Nat.lt_of_le_of_lt (Nat.sub_le _ _) t.isLt))
  else VO2_3.read (Elt F) VO2_3.junk

theorem oAt2_C (c : Dev nD) (t : Fin cfg2.N) (h0 : ¬t.val % 8 = 0) (h1 : t.val % 8 = 7) :
    oAt2 V c t = out2_C_3 c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (sAt2 V c (t.val - 1) (Nat.lt_of_le_of_lt (Nat.sub_le _ _) t.isLt)) := by
  unfold oAt2; exact dif_pos h1

/-! ## The invariant -/

/-- Before position n: at the first point the class invariant (the accumulator at anything); afterwards the untouched
    scoped buffers at anything, the accumulator at what the point before left, the generator register at some state. -/
def PhiS2 (c : Dev nD) : (n : ℕ) → n ≤ cfg2.N → sProp 𝕄
  | 0, _ => Pipeline.ΦA spec2 c
  | n + 1, hn => iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c n hn)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c n hn)) ∗ (∃ r, prngReg c r)) := rfl
theorem PhiS2_pos (c : Dev nD) (n : ℕ) (h : n ≤ cfg2.N) (hz : n ≠ 0) :
    PhiS2 V c n h = iprop(iprop(oth c cc0_stg0_0 ∗ oth c cc0_stg0_1 ∗ oth c cc0_stg1_0 ∗ oth c cc0_stg1_1 ∗ oth c cc1_stg0_0 ∗ oth c cc1_stg0_1 ∗ oth c cc1_stg1_0 ∗ oth c cc1_stg1_1 ∗ owns (c : Thread nD τ) scM2 fullShare (sAt2 V c (n - 1) (by omega))) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => oAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = oAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the closed forms say which case the point is in; the
    invariant hands the body the accumulator at what the point before left (at anything at the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 8 = 0
  · have h1 : ¬t.val % 8 = 7 := by omega
    rw [Dat.leavesExact_idle (dat2 V c) 3 t (idleAt2_3 t (fun h => h1 ((hcond2_1 t).mp h))) (noFlush2_3 t (fun h => h1 ((hcond2_1 t).mp h)))]
    rw [sAt2_A V c t h0 h1]
    unfold sout2_A; (try dsimp only)
    by_cases hz : t.val = 0
    · rw [PhiS2_castSucc V c t, PhiS2_zero V c _ _ hz, PhiA2_eq]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat2 V c).leavesExact 3 t = owns (c : Thread nD τ) (ms2_3 t) fullShare ((dat2 V c).after 3 t) from by
        unfold Dat.leavesExact; rw [liveAt2_3 t ((hcond2_1 t).mpr h1)], after2_3]
      rw [sAt2_C V c t h0 h1, oAt2_C V c t h0 h1]
      unfold out2_C_3 sout2_C; (try dsimp only)
      rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [sAt2_B V c t h0 h1]
      unfold sout2_B; (try dsimp only)
      rw [PhiS2_castSucc V c t, PhiS2_pos V c _ _ hz]
      iintro ⟨⟨⟨O1, O2, O3, O4, O5, O6, O7, O8, HS⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [O1 O2 O3 O4 O5 O6 O7 O8 HS Hg]
      · isplitl [O1 O2 O3 O4 O5 O6 O7 O8 HS]
        · isplitl [O1]; · iexact O1
          isplitl [O2]; · iexact O2
          isplitl [O3]; · iexact O3
          isplitl [O4]; · iexact O4
          isplitl [O5]; · iexact O5
          isplitl [O6]; · iexact O6
          isplitl [O7]; · iexact O7
          isplitl [O8]; · iexact O8
          unfold owns; iexists _; isplitr
          swap; · iexact HS
          ipureintro; exact View.read_writes_of_cover _ _ _ _ _ (scover2_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 256 := N_2; omega), PhiA2_eq]
  iintro ⟨⟨O1, O2, O3, O4, O5, O6, O7, O8, HS⟩, Hg⟩
  isplitl [O1 O2 O3 O4 O5 O6 O7 O8 HS]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    iexists _; iexact HS
  iexact Hg

end Cert.KernelIdeal.Hand

end
-- ==== Proof.FrameI.Run.lean ====
/-
  The whole program as a run: two binarizing passes, the reshape of the bias vector into a row, and the
  matrix-product pass, in that order. Stated here: the contents of every unscoped buffer at each boundary between
  them (each pass changes only its own output array, to what its write-backs leave; the reshape writes only the bias
  row), the three passes as segments of the run around the thread state "every unscoped buffer at the boundary's
  contents, the generator register at some state, nothing owed", and the run itself: every weakly fair execution
  terminates without fault, the output array ends at what the last pass's write-backs leave, and the three argument
  arrays end as launched.
-/
import proofs.«157190_j81063212745346_2_alg».proof.Proof.Gen.KernelIdeal.Launch
import proofs.«157190_j81063212745346_2_alg».proof.Proof.Gen.KernelIdeal.Skeleton
import proofs.«157190_j81063212745346_2_alg».proof.Proof.Gen.KernelIdeal.Points
import proofs.«157190_j81063212745346_2_alg».proof.Proof.Gen.KernelIdeal.Regions
import proofs.«157190_j81063212745346_2_alg».proof.Proof.FrameI.R0
import proofs.«157190_j81063212745346_2_alg».proof.Proof.FrameI.R1
import proofs.«157190_j81063212745346_2_alg».proof.Proof.FrameI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => m (c, b)
abbrev U0 : (c : Dev nD) → (b : Ref sig .tc) → Buf (Elt F) ((c : Thread nD τ).loc b) := fun c b => W0 m c b

/-- After pass 0: its arrays at what the pipeline leaves (the inputs as entered, the output's write-backs folded),
    every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After pass 1: its arrays at what the pipeline leaves (the inputs as entered, the output's write-backs folded),
    every other buffer as entered. -/
def W2 (c : Dev nD) : Valuation τ sig (Elt F) :=
  Pipeline.withArrays spec1 c (W1 m c) fun w => (dat1 (U1 m) c).arrAt w cfg1.N
theorem W2_arr (c : Dev nD) (w : Fin cfg1.W) :
    W2 m c (Proc.devRef .tc (Pipeline.arrRef spec1 w)) = (dat1 (U1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev U2 : (c : Dev nD) → (b : Ref sig .tc) → Buf (Elt F) ((c : Thread nD τ).loc b) := fun c b => W2 m c b
theorem hF1 (c : Dev nD) (w : Fin cfg1.W) : (dat1 (U1 m) c).arrAt w cfg1.N = U2 m c (Pipeline.arrRef spec1 w) :=
  (W2_arr m c w).symm
theorem hrest1 (c : Dev nD) : ∀ b, b ∉ Finset.univ.image (Pipeline.arrRef spec1) → U2 m c b = U1 m c b :=
  fun b hb => W2_of_ne m c b fun w e => hb (Finset.mem_image.mpr ⟨w, Finset.mem_univ _, e⟩)

/-- After the reshape of the bias vector. -/
abbrev W3 : Dev nD → Valuation τ sig (Elt F) := fun c => StableHlo.after hostOps2 (W2 m c)
abbrev U3 : (c : Dev nD) → (b : Ref sig .tc) → Buf (Elt F) ((c : Thread nD τ).loc b) := fun c b => W3 m c b

/-- After pass 2: its arrays at what the pipeline leaves (the inputs as entered, the output's write-backs folded),
    every other buffer as entered. -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

theorem W3_of (c : Dev nD) (r : Ref sig .tc) (h : r ∉ hostOps2_W) : W3 m c r = W2 m c r :=
  StableHlo.after_of_writes_sub hostOps2 _ hostOps2_writes h

/-! ## The arguments end as launched, and the output at what the last pass leaves -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := (W1_arr m c 0).trans (((dat0 (U0 m) c).arrAt_in 0 rfl _).trans (A_eq0 (U0 m) c 0))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 0).trans (((dat1 (U1 m) c).arrAt_in 0 rfl _).trans (A_eq1 (U1 m) c 0))
    _ = W0 m c (Proc.devRef .tc main_arg1) := W1_of_ne m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of_ne m c main_arg2 (by decide)
    _ = m ((c : Thread nD τ).loc main_arg2) := rfl

theorem W4_main_v3 (c : Dev nD) : W4 m c (Proc.devRef .tc main_v3) = (dat2 (U3 m) c).arrAt 3 cfg2.N :=
  W4_arr m c 3

/-! ## The proof data family and the thread state -/

abbrev adm : (p : Fin 3) → (pcfgs (F := F) p).Adm := fun p => (cfgs p).toPCfg_adm
/-- Every pass's proof data, each at its entry contents. -/
def pdats : (p : Fin 3) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U1 m) c
  | ⟨2, _⟩ => fun c => dat2 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The passes as segments -/

set_option backward.isDefEq.respectTransparency.types false in
/-- Pass 0 over the thread state: entered from every unscoped buffer at the contents before it, left at the contents
    after it; its arrays split out of the unscoped buffers and put back at what its write-backs leave; the generator
    register into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered from every unscoped buffer at the contents before it, left at the contents
    after it; its arrays split out of the unscoped buffers and put back at what its write-backs leave; the generator
    register into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at the contents before it, left at the contents
    after it; its arrays split out of the unscoped buffers and put back at what its write-backs leave; the generator
    register into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (U3 m) c)
    unfold Pipeline.ΦA
    iintro ⟨Hp, -, Hr⟩
    isplitl [Hr]; · iexact Hr
    iexact Hp
  hout c := by
    rw [Pipeline.ownSems0_none]
    refine (hout2 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .region (reg1 m),
    .host (hseg hostOps2 hostOps2_sub hostOps2_fresh (W2 m)),
    .region (reg2 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting; the output array ends at what the matrix-product pass's write-backs leave, the arguments as launched. -/
theorem run : θ_run defs (onTc (τ := τ) (main (F := F))) ⟨m, fun _ => 0, ρ⟩ (fun r => ∀ c : Dev nD,
      r.2.mem ((c.tc : Thread nD τ).loc main_v3) = (dat2 (U3 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v3 (by decide))).trans (W4_main_v3 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Hand

end
-- ==== Proof.Spec.lean ====
/-
  The function both programs compute, stated once over the argument arrays.

  For an activation matrix x (8192 × 4096), a weight matrix w (4096 × 4096) and a bias vector b (4096),
  the result at row p, column q is   (Σ_{k < 4096} sgn x(p,k) · sgn w(q,k)) + b(q),
  where sgn v is 1 when v ≥ 0 and -1 otherwise, all on the extended reals.
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 4096]⟩
abbrev SW : Shape := ⟨2, ![4096, 4096]⟩
abbrev SB : Shape := ⟨1, ![4096]⟩

/-- The binarization of one entry: 1 where the entry is at least 0, -1 elsewhere. The three float words are the
    ones both programs print (0.0, 1.0, -1.0). -/
def sgn (v : Ideal .f32) : Ideal .f32 :=
  Scalar.select (FloatOps.cmpf .oge v (FloatOps.ofBits .f32 0x00000000#32))
    (FloatOps.ofBits .f32 0x3F800000#32) (FloatOps.ofBits .f32 0xBF800000#32)

/-- The binarized dense layer: entry (p, q) is the sum over k of sgn x(p,k) · sgn w(q,k), plus b(q). -/
def G (x : (⟨SX, .f32⟩ : BufTy).Contents (Elt Ideal)) (w : (⟨SW, .f32⟩ : BufTy).Contents (Elt Ideal))
    (b : (⟨SB, .f32⟩ : BufTy).Contents (Elt Ideal)) : (⟨SX, .f32⟩ : BufTy).Contents (Elt Ideal) :=
  fun i => (∑ k : Fin 4096, sgn (x (ix2 (n0 := 8192) (n1 := 4096) ⟨(i 0).val, (i 0).isLt⟩ k))
      * sgn (w (ix2 (n0 := 4096) (n1 := 4096) ⟨(i 1).val, (i 1).isLt⟩ k)))
    + b (ix1 (n := 4096) ⟨(i 1).val, (i 1).isLt⟩)

end Cert.Spec

end
-- ==== Proof.Payloads.lean ====
/-
  What each stored value of the three kernel bodies is, entry by entry, on the extended reals.

  The two casting bodies take a block of 512 × 4096 entries and replace every entry v by sgn v: 1 when v is at least 0,
  and -1 otherwise. The narrowing of the number format that follows changes nothing on the extended reals, where a
  value has no format.

  The matrix body works on one 1024 × 1024 tile of the result, with an accumulator tile of the same size. It stores
  three kinds of value:
    • at the first step along the contracted axis, the zero tile: every entry is 0;
    • at every step, the accumulator plus the product of the two operand blocks: with x and w both 1024 × 512 and
      contracted along their second axes, entry (p, q) becomes  s(p,q) + Σ_{r < 512} x(p,r) · w(q,r);
    • at the last step, the accumulator plus the bias row repeated down the 1024 rows: entry (p, q) becomes
      s(p,q) + b(0,q).
  Casting an array to its own shape moves no entry, so those casts drop out. The product into a zero accumulator is the
  bare sum, and the sum's index — a position on the one contracted axis — is renamed to a number r below 512; the left
  operand is then read at (p, r) and the right operand at (q, r).
-/
import proofs.«157190_j81063212745346_2_alg».proof.Proof.Gen.KernelIdeal.Skeleton
import proofs.«157190_j81063212745346_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The casting bodies -/

/-- The first casting body's stored block, at any entry, is the sign of the loaded entry. -/
theorem pay_cast0 (v : Vec Ideal S512x4096 .f32) (j : S512x4096.Idx) :
    k0_pay1 (F := Ideal) v j = Cert.Spec.sgn (v j) := rfl

/-- The second casting body's stored block, at any entry, is the sign of the loaded entry. -/
theorem pay_cast1 (v : Vec Ideal S512x4096 .f32) (j : S512x4096.Idx) :
    k1_pay1 (F := Ideal) v j = Cert.Spec.sgn (v j) := rfl

/-! ## The matrix body -/

/-- The tile stored at the first step is zero at every entry. -/
theorem pay_zero (j : S1024x1024.Idx) : k2_pay1 (F := Ideal) j = 0 := by
  unfold k2_pay1
  refine (congrFun (shapeCast_self _ _) j).trans ?_
  exact Ideal.ofBits_zero_f32

/-- The tile stored at the last step: entry (p, q) is the accumulator's entry plus the bias row's entry in column q. -/
theorem pay_bias (s : Vec Ideal S1024x1024 .f32) (b : Vec Ideal S1x1024 .f32) (p q : Fin 1024) :
    k2_pay3 (F := Ideal) s b (ix2 p q) = s (ix2 p q) + b (ix2 (0 : Fin 1) q) := by
  unfold k2_pay3
  refine (addf_apply _ _ _).trans ?_
  refine congrArg (fun t => s (ix2 p q) + t) ?_
  refine (broadcastTo_1b_ab_apply _ _ p q).trans ?_
  exact (congrFun (shapeCast_self _ _) _).trans (congrFun (shapeCast_self _ _) _)

/-- The left operand's index at output entry i and contraction position c has the row of i as its first coordinate … -/
theorem lhs_row (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- … and the contraction position as its second. -/
theorem lhs_pos (i : S1024x1024.Idx) (c : dot_S1024x512_S1024x512_S1024x1024_1_1_0_0_n_n.contr.Idx) :
    (dot_S1024x512_S1024x512_S1024x1024_1_1_0_0_n_n.lhsIdx i c 1).val = (c ⟨0, by decide⟩).val :=
  dot_S1024x512_S1024x512_S1024x1024_1_1_0_0_n_n.lhsIdx_val_of_single rfl i c
/-- The right operand's index has the column of i as its first coordinate … -/
theorem rhs_row (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- … and the contraction position as its second. -/
theorem rhs_pos (i : S1024x1024.Idx) (c : dot_S1024x512_S1024x512_S1024x1024_1_1_0_0_n_n.contr.Idx) :
    (dot_S1024x512_S1024x512_S1024x1024_1_1_0_0_n_n.rhsIdx i c 1).val = (c ⟨0, by decide⟩).val :=
  dot_S1024x512_S1024x512_S1024x1024_1_1_0_0_n_n.rhsIdx_val_of_single rfl i c

/-- The product of two 1024 × 512 blocks, contracted along their second axes, into a zero accumulator: entry (p, q) is
    Σ_{r < 512} y0(p,r) · y1(q,r). -/
theorem matmul_at (y0 y1 : FVec Ideal S1024x512 .bf16) (p q : Fin 1024) :
    matmul (F := Ideal) dot_S1024x512_S1024x512_S1024x1024_1_1_0_0_n_n none y0 y1 (constant (F := Ideal) S1024x1024 .f32 0x00000000#32) (ix2 p q)
      = ∑ r : Fin 512, y0 (ix2 p r) * y1 (ix2 q r) := by
  simp only [matmul]
  rw [Ideal.matmul_constant_zero_apply, ← Equiv.sum_comp (contrEquiv1 dot_S1024x512_S1024x512_S1024x1024_1_1_0_0_n_n 512 rfl rfl).symm]
  refine Finset.sum_congr rfl fun r _ => ?_
  have hk := contrEquiv1_symm_val dot_S1024x512_S1024x512_S1024x1024_1_1_0_0_n_n 512 rfl rfl r
  have el : dot_S1024x512_S1024x512_S1024x1024_1_1_0_0_n_n.lhsIdx (ix2 p q) ((contrEquiv1 dot_S1024x512_S1024x512_S1024x1024_1_1_0_0_n_n 512 rfl rfl).symm r) = ix2 p r := funext fun a => Fin.ext (by
    match a with
    | ⟨0, _⟩ => exact lhs_row _ _
    | ⟨1, _⟩ => exact (lhs_pos _ _).trans hk)
  have er : dot_S1024x512_S1024x512_S1024x1024_1_1_0_0_n_n.rhsIdx (ix2 p q) ((contrEquiv1 dot_S1024x512_S1024x512_S1024x1024_1_1_0_0_n_n 512 rfl rfl).symm r) = ix2 q r := funext fun a => Fin.ext (by
    match a with
    | ⟨0, _⟩ => exact rhs_row _ _
    | ⟨1, _⟩ => exact (rhs_pos _ _).trans hk)
  rw [el, er]

/-- The tile stored at every step: entry (p, q) is the accumulator's entry plus the sum over the block's 512 positions of
    the products of the left block's row p and the right block's row q. -/
theorem pay_acc (s : Vec Ideal S1024x1024 .f32) (x w : Vec Ideal S1024x512 .bf16) (p q : Fin 1024) :
    k2_pay2 (F := Ideal) s x w (ix2 p q) = s (ix2 p q) + ∑ r : Fin 512, x (ix2 p r) * w (ix2 q r) := by
  unfold k2_pay2
  refine (congrFun (shapeCast_self _ _) (ix2 p q)).trans ?_
  refine (addf_apply _ _ _).trans ?_
  refine congrArg (fun t => s (ix2 p q) + t) ?_
  have hx : shapeCast S1024x512 x shapeCasts_S1024x512_S1024x512 = x := shapeCast_self _ _
  have hw : shapeCast S1024x512 w shapeCasts_S1024x512_S1024x512 = w := shapeCast_self _ _
  rw [hx, hw]
  exact matmul_at x w p q

end Cert.KernelIdeal.Pay

end
-- ==== Proof.ValCast0.lean ====
/-
  The binarizing pass number 0, read as a value at the ideal instance: entered at buffer contents V, it leaves in its
  output array, at every index, the sign (1 where the entry is at least 0, else -1) of the input array's entry at
  the same index. A grid point's written-back block is the sign of the input block because the body's one store is
  the pointwise sign of its one load; the input and output blocks of a point sit at the same rows; the blocks of the
  16 points tile the 8192 rows, so every index is covered by the point (row / 512).
-/
import proofs.«157190_j81063212745346_2_alg».proof.Proof.FrameI.R0
import proofs.«157190_j81063212745346_2_alg».proof.Proof.Payloads
import proofs.«157190_j81063212745346_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz_c0 : (![0, 0] : Fin 2 → Nat) = fun _ => 0 := funext fun a => by fin_cases a <;> rfl

/-- The sign of an array, entry by entry. -/
abbrev sgA0 (a0 : S8192x4096.Idx → Elt Ideal .f32) : S8192x4096.Idx → Elt Ideal .bf16 := fun i => Cert.Spec.sgn (a0 i)

/-- Both windows' block at point t is the t-th block of 512 rows, all columns. -/
theorem idx_facts_c0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the sign of the input array. -/
theorem flushed_c0 (c : Dev nD) (t : Fin cfg0.N) :
    (dat0 V c).flushed 1 t = ((cfg0.win 1).blk t).view.read (Elt Ideal) (sgA0 (V c main_arg0)) := by
  show (cfg0.win 1).cut (grid0.coords t) ((dat0 V c).after 1 t) = _
  rw [after0_1]
  unfold out0_1
  rw [View.canon_unit_zero hz_c0]
  simp only [View.ld_unit_zero (S := S512x4096) hz_c0]
  obtain ⟨e0, e1, e2, e3⟩ := idx_facts_c0 t
  funext j
  refine (Cert.KernelIdeal.Pay.pay_cast0 _ j).trans ?_
  show Cert.Spec.sgn (V c main_arg0 (((cfg0.win 0).blk t).view.emb j)) = Cert.Spec.sgn (V c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point t's block iff each coordinate is in the block's range on its axis. -/
theorem mem_blk_c0 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every index is in the block of the point (row / 512), which is written back. -/
theorem cover_c0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 16 := N_0
  have hlt : (i 0).val / 512 < cfg0.N := by rw [hN]; omega
  refine ⟨⟨(i 0).val / 512, hlt⟩, flush0_1 _, ?_⟩
  rw [mem_blk_c0]
  obtain ⟨e0, e1, e2, e3⟩ := idx_facts_c0 ⟨(i 0).val / 512, hlt⟩
  intro a
  match a with
  | ⟨0, _⟩ =>
    show win0_1.index ⟨(i 0).val / 512, hlt⟩ (0 : Fin 2) * 512 ≤ (i 0).val ∧ (i 0).val < win0_1.index ⟨(i 0).val / 512, hlt⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hlt⟩ (1 : Fin 2) * 4096 ≤ (i 1).val ∧ (i 1).val < win0_1.index ⟨(i 0).val / 512, hlt⟩ (1 : Fin 2) * 4096 + 4096
    rw [e3]; omega

/-- THE OUTPUT ARRAY after the pass: the sign of the input array, at every index. -/
theorem final_c0 (c : Dev nD) : (dat0 V c).arrAt 1 cfg0.N = sgA0 (V c main_arg0) :=
  (dat0 V c).arrAt_eq_of_cover 1 _ (fun t _ => flushed_c0 V c t) (cover_c0)

end Cert.KernelIdeal.Val

end
-- ==== Proof.ValCast1.lean ====
/-
  The binarizing pass number 1, read as a value at the ideal instance: entered at buffer contents V, it leaves in its
  output array, at every index, the sign (1 where the entry is at least 0, else -1) of the input array's entry at
  the same index. A grid point's written-back block is the sign of the input block because the body's one store is
  the pointwise sign of its one load; the input and output blocks of a point sit at the same rows; the blocks of the
  8 points tile the 4096 rows, so every index is covered by the point (row / 512).
-/
import proofs.«157190_j81063212745346_2_alg».proof.Proof.FrameI.R1
import proofs.«157190_j81063212745346_2_alg».proof.Proof.Payloads
import proofs.«157190_j81063212745346_2_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz_c1 : (![0, 0] : Fin 2 → Nat) = fun _ => 0 := funext fun a => by fin_cases a <;> rfl

/-- The sign of an array, entry by entry. -/
abbrev sgA1 (a0 : S4096x4096.Idx → Elt Ideal .f32) : S4096x4096.Idx → Elt Ideal .bf16 := fun i => Cert.Spec.sgn (a0 i)

/-- Both windows' block at point t is the t-th block of 512 rows, all columns. -/
theorem idx_facts_c1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the sign of the input array. -/
theorem flushed_c1 (c : Dev nD) (t : Fin cfg1.N) :
    (dat1 V c).flushed 1 t = ((cfg1.win 1).blk t).view.read (Elt Ideal) (sgA1 (V c main_arg1)) := by
  show (cfg1.win 1).cut (grid1.coords t) ((dat1 V c).after 1 t) = _
  rw [after1_1]
  unfold out1_1
  rw [View.canon_unit_zero hz_c1]
  simp only [View.ld_unit_zero (S := S512x4096) hz_c1]
  obtain ⟨e0, e1, e2, e3⟩ := idx_facts_c1 t
  funext j
  refine (Cert.KernelIdeal.Pay.pay_cast1 _ j).trans ?_
  show Cert.Spec.sgn (V c main_arg1 (((cfg1.win 0).blk t).view.emb j)) = Cert.Spec.sgn (V c main_arg1 (((cfg1.win 1).blk t).view.emb j))
  have h0 : ((cfg1.win 0).blk t).view.emb j = ((cfg1.win 1).blk t).view.emb j := by
    funext a; apply Fin.ext
    match a with
    | ⟨0, _⟩ => show win1_0.index t (0 : Fin 2) * 512 + 1 * (j 0).val = win1_1.index t (0 : Fin 2) * 512 + 1 * (j 0).val; omega
    | ⟨1, _⟩ => show win1_0.index t (1 : Fin 2) * 4096 + 1 * (j 1).val = win1_1.index t (1 : Fin 2) * 4096 + 1 * (j 1).val; omega
  rw [h0]

/-- An index of the output array is in point t's block iff each coordinate is in the block's range on its axis. -/
theorem mem_blk_c1 (t : Fin cfg1.N) (i : S4096x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1).slice (win1_1.rect t)).set ↔ _
  rw [View.set_slice_whole, Rect.mem_set_unit]
  exact Iff.rfl

/-- Every index is in the block of the point (row / 512), which is written back. -/
theorem cover_c1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 8 := N_1
  have hlt : (i 0).val / 512 < cfg1.N := by rw [hN]; omega
  refine ⟨⟨(i 0).val / 512, hlt⟩, flush1_1 _, ?_⟩
  rw [mem_blk_c1]
  obtain ⟨e0, e1, e2, e3⟩ := idx_facts_c1 ⟨(i 0).val / 512, hlt⟩
  intro a
  match a with
  | ⟨0, _⟩ =>
    show win1_1.index ⟨(i 0).val / 512, hlt⟩ (0 : Fin 2) * 512 ≤ (i 0).val ∧ (i 0).val < win1_1.index ⟨(i 0).val / 512, hlt⟩ (0 : Fin 2) * 512 + 512
    rw [e2]; show (i 0).val / 512 * 512 ≤ (i 0).val ∧ (i 0).val < (i 0).val / 512 * 512 + 512; omega
  | ⟨1, _⟩ =>
    show win1_1.index ⟨(i 0).val / 512, hlt⟩ (1 : Fin 2) * 4096 ≤ (i 1).val ∧ (i 1).val < win1_1.index ⟨(i 0).val / 512, hlt⟩ (1 : Fin 2) * 4096 + 4096
    rw [e3]; omega

/-- THE OUTPUT ARRAY after the pass: the sign of the input array, at every index. -/
theorem final_c1 (c : Dev nD) : (dat1 V c).arrAt 1 cfg1.N = sgA1 (V c main_arg1) :=
  (dat1 V c).arrAt_eq_of_cover 1 _ (fun t _ => flushed_c1 V c t) (cover_c1)

end Cert.KernelIdeal.Val

end
-- ==== Proof.Pieces.lean ====
/-
  What each control case of the matrix-product body leaves, as the body's arithmetic: at k = 0 the accumulator ends
  holding the first product added to the zero array; at the other points the point's product added to what the
  accumulator held; and at k = 7 the output block ends holding that new accumulator plus the bias row. Each store
  is through the whole 1024 × 1024 rectangle, so the last store into a buffer is what the buffer holds, and a load
  through the whole rectangle of a buffer just stored reads the stored value.
-/
import proofs.«157190_j81063212745346_2_alg».proof.Proof.FrameI.R2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz_m : (![0, 0] : Fin 2 → Nat) = fun _ => 0 := funext fun a => by fin_cases a <;> rfl

/-- A load through the whole rectangle of a buffer into which one store through the whole rectangle was just made
    reads the stored value. -/
theorem readCov_whole (v : View sig .tc .vmem S1024x1024 .f32) (w : Vec F S1024x1024 .f32) :
    v.readCov [(⟨Rect.unit (s := S1024x1024) ![0, 0] S1024x1024.size inb_S1024x1024_S1024x1024_0_0, w⟩ : View.Piece (Elt F) S1024x1024 .f32)]
      (Rect.unit (s := S1024x1024) ![0, 0] S1024x1024.size inb_S1024x1024_S1024x1024_0_0).toLoadRect = w :=
  View.readCov_unit_zero v hz_m inb_S1024x1024_S1024x1024_0_0 w

/-- Case k = 0: the accumulator ends at (zero array) + product. -/
theorem sout2_A_eq (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x512 .bf16) (x1 : Vec F S1024x512 .bf16) (x2 : Vec F S1x1024 .f32) :
    sout2_A c i arg3 harg3 arg4 harg4 arg5 harg5 arg6 harg6 arg7 harg7 hc0 hc1 x0 x1 x2 = k2_pay2 (k2_pay1 (F := F)) x0 x1 := by
  unfold sout2_A
  rw [View.read_writes_eq_canon _ _ _ (scover2_A c i arg3 harg3 arg4 harg4 arg5 harg5 arg6 harg6 arg7 harg7 hc0 hc1 x0 x1 x2)]
  unfold kernelRun2_A
  dsimp only
  sl_unfold_words
  rw [View.canon_cons_unit_zero hz_m]
  simp only [View.readAt_eq_ld, harg3.read_unread, harg4.read_unread, View.ld_unit_zero (S := S1024x512) hz_m]
  rw [readCov_whole]

/-- Case 0 < k < 7: the accumulator ends at (what it held) + product. -/
theorem sout2_B_eq (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x512 .bf16) (x1 : Vec F S1024x512 .bf16) (x2 : Vec F S1x1024 .f32) (xs : Vec F S1024x1024 .f32) :
    sout2_B c i arg3 harg3 arg4 harg4 arg5 harg5 arg6 harg6 arg7 harg7 hc0 hc1 x0 x1 x2 xs = k2_pay2 xs x0 x1 := by
  unfold sout2_B
  rw [View.read_writes_eq_canon _ _ _ (scover2_B c i arg3 harg3 arg4 harg4 arg5 harg5 arg6 harg6 arg7 harg7 hc0 hc1 x0 x1 x2 xs)]
  unfold kernelRun2_B
  dsimp only
  sl_unfold_words
  rw [View.canon_unit_zero hz_m]
  simp only [View.readAt_eq_ld, harg3.read_unread, harg4.read_unread, harg7.read_unread, View.ld_unit_zero (S := S1024x512) hz_m, View.ld_unit_zero (S := S1024x1024) hz_m]

/-- Case k = 7: the accumulator ends at (what it held) + product, -/
theorem sout2_C_eq (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) :
    sout2_C c i arg3 harg3 arg4 harg4 arg5 harg5 arg6 harg6 arg7 harg7 hc0 hc1 x0 x1 x2 xs = k2_pay2 xs x0 x1 := by
  unfold sout2_C
  rw [View.read_writes_eq_canon _ _ _ (scover2_C c i arg3 harg3 arg4 harg4 arg5 harg5 arg6 harg6 arg7 harg7 hc0 hc1 x0 x1 x2 xs)]
  unfold kernelRun2_C
  dsimp only
  sl_unfold_words
  rw [View.canon_unit_zero hz_m]
  simp only [View.readAt_eq_ld, harg3.read_unread, harg4.read_unread, harg7.read_unread, View.ld_unit_zero (S := S1024x512) hz_m, View.ld_unit_zero (S := S1024x1024) hz_m]

/-- and the output block at that new accumulator plus the bias row. -/
theorem out2_C_3_eq (c : Dev nD) (i : grid2.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x512 .bf16) (x1 : Vec F S1024x512 .bf16) (x2 : Vec F S1x1024 .f32) (xs : Vec F S1024x1024 .f32) :
    out2_C_3 c i arg3 harg3 arg4 harg4 arg5 harg5 arg6 harg6 arg7 harg7 hc0 hc1 x0 x1 x2 xs = k2_pay3 (k2_pay2 xs x0 x1) x2 := by
  unfold out2_C_3
  rw [View.read_writes_eq_canon _ _ _ (cover2_C_3 c i arg3 harg3 arg4 harg4 arg5 harg5 arg6 harg6 arg7 harg7 hc0 hc1 x0 x1 x2 xs)]
  unfold kernelRun2_C
  dsimp only
  sl_unfold_words
  rw [View.canon_unit_zero hz_m]
  simp only [View.readAt_eq_ld, harg3.read_unread, harg4.read_unread, harg5.read_unread, harg7.read_unread, View.ld_unit_zero (S := S1024x512) hz_m, View.ld_unit_zero (S := S1024x1024) hz_m, View.ld_unit_zero (S := S1x1024) hz_m]
  rw [readCov_whole]

end Cert.KernelIdeal.Hand

end
-- ==== Proof.SumBlocks.lean ====
/-
  Two facts about finite sums in a commutative additive monoid, used to compare a sum taken in one sweep with the same
  sum taken block by block.

  (1) A sum over the 4096 positions k = 0, …, 4095 is the sum, over the 8 blocks j = 0, …, 7, of the sum over the 512
      positions r = 0, …, 511 inside the block, of the term at position 512·j + r. Every k below 4096 is 512·j + r for
      exactly one pair (j, r) with j < 8 and r < 512 (division with remainder by 512), so the two sums run over the
      same terms; only the order and the grouping differ, and in a commutative monoid those do not matter.

  (2) An accumulator that starts at 0 and receives the eight block sums g 0, …, g 7 one after another, each added on the
      right, ends at the sum of the eight: 0 is neutral and the sum over eight positions is, written out, that very
      left-nested expression.

  Neither fact uses anything about the summands beyond commutativity and associativity of +, so both hold on the
  extended reals, infinite values included.
-/
import Mathlib.Algebra.BigOperators.Fin
import Mathlib.Data.Fintype.BigOperators
import Mathlib.Logic.Equiv.Fin.Basic

namespace Cert.SumBlocks

/-- A sum over 4096 positions, regrouped as 8 consecutive blocks of 512: position k = 512·j + r is position r of
    block j. The pairing (j, r) ↦ r + 512·j is a bijection from pairs onto the 4096 positions; the sum is carried
    along it and the sum over pairs is then split into the outer sum over j and the inner sum over r. -/
theorem sum_blocks {M : Type*} [AddCommMonoid M] (f : Fin 4096 → M) :
    ∑ k : Fin 4096, f k = ∑ j : Fin 8, ∑ r : Fin 512, f ⟨512 * j.val + r.val, by omega⟩ := by
  have h : ∑ p : Fin 8 × Fin 512, f (finProdFinEquiv p) = ∑ k : Fin (8 * 512), f k :=
    Equiv.sum_comp (finProdFinEquiv (m := 8) (n := 512)) (fun k : Fin (8 * 512) => f k)
  rw [Fintype.sum_prod_type] at h
  refine h.symm.trans ?_
  refine Finset.sum_congr rfl fun j _ => Finset.sum_congr rfl fun r _ => ?_
  refine congrArg f (Fin.ext ?_)
  show r.val + 512 * j.val = 512 * j.val + r.val
  exact Nat.add_comm _ _

/-- The accumulator's final value: starting from 0 and adding eight terms in order, each on the right, gives their
    sum. -/
theorem acc_eq {M : Type*} [AddCommMonoid M] (g : Fin 8 → M) :
    ((((((((0 + g 0) + g 1) + g 2) + g 3) + g 4) + g 5) + g 6) + g 7) = ∑ j : Fin 8, g j := by
  rw [Fin.sum_univ_eight, zero_add]

end Cert.SumBlocks
-- ==== Proof.ValMat.lean ====
/-
  The matrix-product pass, read as a value at the ideal instance. Entered at buffer contents V, with X the
  8192 × 4096 array of the first operand, W the 4096 × 4096 array of the second and B the 1 × 4096 bias row, it leaves
  in its output array, at row i and column n,   (Σ_{k < 4096} X(i,k) · W(n,k)) + B(0,n).

  The grid point number t has row block t / 32, column block (t / 8) mod 4 and contraction block t mod 8. After the
  point with contraction block k the accumulator holds, at (p, q), the sum over j ≤ k of the products of the j-th
  512-wide pieces of row (row block · 1024 + p) of X and row (column block · 1024 + q) of W: at k = 0 the accumulator
  is zeroed first, and each later point adds its own piece to what the point before left (an induction on k). At k = 7
  the eight pieces make the whole row: a sum over 4096 positions is the sum over 8 blocks of the sums over 512. The
  output block is written back exactly at the points with k = 7, holding that total plus the bias row, and the
  32 output blocks tile the array.
-/
import proofs.«157190_j81063212745346_2_alg».proof.Proof.FrameI.R2
import proofs.«157190_j81063212745346_2_alg».proof.Proof.Pieces
import proofs.«157190_j81063212745346_2_alg».proof.Proof.Payloads
import proofs.«157190_j81063212745346_2_alg».proof.Proof.SumBlocks
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where each window's block sits at grid point t. -/
theorem idx_facts_m : ∀ t : Fin cfg2.N,
    win2_0.index t (0 : Fin 2) = t.val / 32 ∧ win2_0.index t (1 : Fin 2) = t.val % 8
    ∧ win2_1.index t (0 : Fin 2) = t.val / 8 % 4 ∧ win2_1.index t (1 : Fin 2) = t.val % 8
    ∧ win2_2.index t (0 : Fin 2) = 0 ∧ win2_2.index t (1 : Fin 2) = t.val / 8 % 4
    ∧ win2_3.index t (0 : Fin 2) = t.val / 32 ∧ win2_3.index t (1 : Fin 2) = t.val / 8 % 4 :=
  (by decide +kernel : ∀ t : Fin grid2.N, _)

/-- A rank-2 array read at natural-number coordinates (0 outside the array: never consulted there). -/
def rd (R C : ℕ) (A : (⟨2, ![R, C]⟩ : Shape).Idx → EReal) (r k : ℕ) : EReal :=
  if h : r < R ∧ k < C then A (ix2 ⟨r, h.1⟩ ⟨k, h.2⟩) else 0

theorem rd_eq {R C : ℕ} (A : (⟨2, ![R, C]⟩ : Shape).Idx → EReal) {r k : ℕ} (h1 : r < R) (h2 : k < C) :
    rd R C A r k = A (ix2 ⟨r, h1⟩ ⟨k, h2⟩) := dif_pos ⟨h1, h2⟩

/-- The first operand's block at point t, entry (p, r): row (row block · 1024 + p), position (512 · k + r) of X. -/
theorem blk0_read (c : Dev nD) (t : Fin cfg2.N) (p : Fin 1024) (r : Fin 512) :
    iblk2 V c 0 t (ix2 p r) = rd 8192 4096 (V c main_v0) (t.val / 32 * 1024 + p.val) (512 * (t.val % 8) + r.val) := by
  have hN : t.val < 256 := lt_of_lt_of_eq t.isLt N_2
  obtain ⟨e0, e1, -⟩ := idx_facts_m t
  rw [rd_eq _ (by omega) (by omega)]
  show V c main_v0 (((cfg2.win 0).blk t).view.emb (ix2 p r)) = _
  refine congrArg (V c main_v0) ?_
  funext a; apply Fin.ext
  match a with
  | ⟨0, _⟩ => show win2_0.index t (0 : Fin 2) * 1024 + 1 * p.val = t.val / 32 * 1024 + p.val; rw [e0]; omega
  | ⟨1, _⟩ => show win2_0.index t (1 : Fin 2) * 512 + 1 * r.val = 512 * (t.val % 8) + r.val; rw [e1]; omega

/-- The second operand's block at point t, entry (q, r): row (column block · 1024 + q), position (512 · k + r) of W. -/
theorem blk1_read (c : Dev nD) (t : Fin cfg2.N) (q : Fin 1024) (r : Fin 512) :
    iblk2 V c 1 t (ix2 q r) = rd 4096 4096 (V c main_v1) (t.val / 8 % 4 * 1024 + q.val) (512 * (t.val % 8) + r.val) := by
  have hN : t.val < 256 := lt_of_lt_of_eq t.isLt N_2
  obtain ⟨-, -, e2, e3, -⟩ := idx_facts_m t
  rw [rd_eq _ (by omega) (by omega)]
  show V c main_v1 (((cfg2.win 1).blk t).view.emb (ix2 q r)) = _
  refine congrArg (V c main_v1) ?_
  funext a; apply Fin.ext
  match a with
  | ⟨0, _⟩ => show win2_1.index t (0 : Fin 2) * 1024 + 1 * q.val = t.val / 8 % 4 * 1024 + q.val; rw [e2]; omega
  | ⟨1, _⟩ => show win2_1.index t (1 : Fin 2) * 512 + 1 * r.val = 512 * (t.val % 8) + r.val; rw [e3]; omega

/-- The bias row's block at point t, entry (0, q): position (column block · 1024 + q) of B. -/
theorem blk2_read (c : Dev nD) (t : Fin cfg2.N) (q : Fin 1024) :
    iblk2 V c 2 t (ix2 (0 : Fin 1) q) = rd 1 4096 (V c main_v2) 0 (t.val / 8 % 4 * 1024 + q.val) := by
  have hN : t.val < 256 := lt_of_lt_of_eq t.isLt N_2
  obtain ⟨-, -, -, -, e4, e5, -⟩ := idx_facts_m t
  rw [rd_eq _ (by omega) (by omega)]
  show V c main_v2 (((cfg2.win 2).blk t).view.emb (ix2 (0 : Fin 1) q)) = _
  refine congrArg (V c main_v2) ?_
  funext a; apply Fin.ext
  match a with
  | ⟨0, _⟩ => show win2_2.index t (0 : Fin 2) * 1 + 1 * (0 : Fin 1).val = 0; rw [e4]; rfl
  | ⟨1, _⟩ => show win2_2.index t (1 : Fin 2) * 1024 + 1 * q.val = t.val / 8 % 4 * 1024 + q.val; rw [e5]; omega

/-- The product of two 1024 × 512 blocks along their second axes, at (p, q). -/
def blockProd (x w : Vec Ideal S1024x512 .bf16) (p q : Fin 1024) : EReal :=
  ∑ r : Fin 512, x (ix2 p r) * w (ix2 q r)

/-- The product of the two blocks of point t at (p, q). -/
def Mpt (c : Dev nD) (t : Fin cfg2.N) (p q : Fin 1024) : EReal :=
  blockProd (iblk2 V c 0 t) (iblk2 V c 1 t) p q

/-- The j-th 512-wide piece of the row product for output-block group g (row block g / 4, column block g mod 4). -/
def Bl (c : Dev nD) (g j : ℕ) (p q : Fin 1024) : EReal :=
  ∑ r : Fin 512, rd 8192 4096 (V c main_v0) (g / 4 * 1024 + p.val) (512 * j + r.val)
    * rd 4096 4096 (V c main_v1) (g % 4 * 1024 + q.val) (512 * j + r.val)

theorem Mpt_eq (c : Dev nD) (t : Fin cfg2.N) (p q : Fin 1024) : Mpt V c t p q = Bl V c (t.val / 8) (t.val % 8) p q := by
  unfold Mpt blockProd Bl
  have e : t.val / 8 / 4 = t.val / 32 := by omega
  rw [e]
  exact Finset.sum_congr rfl fun r _ => by rw [blk0_read, blk1_read]

/-- At a point with k = 0 the accumulator ends at 0 + the point's product. -/
theorem s_step0 (c : Dev nD) (t : Fin cfg2.N) (h0 : t.val % 8 = 0) (p q : Fin 1024) :
    sAt2 V c t.val t.isLt (ix2 p q) = 0 + Mpt V c t p q := by
  have h1 : ¬t.val % 8 = 7 := by omega
  rw [sAt2_A V c t h0 h1, sout2_A_eq]
  unfold Mpt blockProd
  refine (Cert.KernelIdeal.Pay.pay_acc _ _ _ p q).trans ?_
  rw [Cert.KernelIdeal.Pay.pay_zero]

/-- At a point with k > 0 the accumulator ends at what the point before left + the point's product. -/
theorem s_stepS (c : Dev nD) (t : Fin cfg2.N) (h0 : ¬t.val % 8 = 0) (p q : Fin 1024) :
    sAt2 V c t.val t.isLt (ix2 p q)
      = sAt2 V c (t.val - 1) (Nat.lt_of_le_of_lt (Nat.sub_le _ _) t.isLt) (ix2 p q) + Mpt V c t p q := by
  unfold Mpt blockProd
  by_cases h1 : t.val % 8 = 7
  · rw [sAt2_C V c t h0 h1, sout2_C_eq]; exact Cert.KernelIdeal.Pay.pay_acc _ _ _ p q
  · rw [sAt2_B V c t h0 h1, sout2_B_eq]; exact Cert.KernelIdeal.Pay.pay_acc _ _ _ p q

/-- THE ACCUMULATOR after the point with contraction block k: the sum of the first k + 1 pieces. -/
theorem s_sum (c : Dev nD) : ∀ (k : ℕ) (t : Fin cfg2.N), t.val % 8 = k → ∀ p q : Fin 1024,
    sAt2 V c t.val t.isLt (ix2 p q) = ∑ j ∈ Finset.range (k + 1), Bl V c (t.val / 8) j p q
  | 0, t, h, p, q => by
    rw [s_step0 V c t h p q, Mpt_eq, h, Finset.sum_range_one, zero_add]
  | k + 1, t, h, p, q => by
    have h0 : ¬t.val % 8 = 0 := by omega
    have ht : t.val - 1 < cfg2.N := Nat.lt_of_le_of_lt (Nat.sub_le _ _) t.isLt
    have ih := s_sum c k ⟨t.val - 1, ht⟩ (by show (t.val - 1) % 8 = k; omega) p q
    have e8 : (t.val - 1) / 8 = t.val / 8 := by omega
    rw [s_stepS V c t h0 p q, Mpt_eq, h, Finset.sum_range_succ]
    refine congrArg (· + Bl V c (t.val / 8) (k + 1) p q) ?_
    refine ih.trans ?_
    show ∑ j ∈ Finset.range (k + 1), Bl V c ((t.val - 1) / 8) j p q = _
    rw [e8]

/-- Eight pieces make the row: the sum over 4096 positions. -/
theorem bl_total (c : Dev nD) (g : ℕ) (p q : Fin 1024) :
    ∑ j ∈ Finset.range 8, Bl V c g j p q
      = ∑ kk : Fin 4096, rd 8192 4096 (V c main_v0) (g / 4 * 1024 + p.val) kk.val * rd 4096 4096 (V c main_v1) (g % 4 * 1024 + q.val) kk.val := by
  rw [Cert.SumBlocks.sum_blocks (fun kk : Fin 4096 => rd 8192 4096 (V c main_v0) (g / 4 * 1024 + p.val) kk.val * rd 4096 4096 (V c main_v1) (g % 4 * 1024 + q.val) kk.val),
    Finset.sum_range]
  rfl

/-- Row i of X against row n of W, summed over the 4096 positions, plus the bias row at n. -/
def rowSum (X : Vec Ideal S8192x4096 .bf16) (W : Vec Ideal S4096x4096 .bf16) (B : Vec Ideal S1x4096 .f32) : S8192x4096.Idx → EReal := fun i =>
  (∑ kk : Fin 4096, X (ix2 (n0 := 8192) (n1 := 4096) ⟨(i 0).val, (i 0).isLt⟩ kk) * W (ix2 (n0 := 4096) (n1 := 4096) ⟨(i 1).val, (i 1).isLt⟩ kk))
    + B (ix2 (n0 := 1) (n1 := 4096) (0 : Fin 1) ⟨(i 1).val, (i 1).isLt⟩)

/-- The function the output array ends at. -/
abbrev Gm (c : Dev nD) : S8192x4096.Idx → EReal := rowSum (V c main_v0) (V c main_v1) (V c main_v2)

/-- At a point with k > 0 the accumulator after the point, as the body's arithmetic over what the point before left. -/
theorem sAt2_pay (c : Dev nD) (t : Fin cfg2.N) (h0 : ¬t.val % 8 = 0) :
    sAt2 V c t.val t.isLt = k2_pay2 (F := Ideal) (sAt2 V c (t.val - 1) (Nat.lt_of_le_of_lt (Nat.sub_le _ _) t.isLt)) (iblk2 V c 0 t) (iblk2 V c 1 t) := by
  by_cases h1 : t.val % 8 = 7
  · rw [sAt2_C V c t h0 h1, sout2_C_eq]
  · rw [sAt2_B V c t h0 h1, sout2_B_eq]

/-- WHAT A POINT WITH k = 7 WRITES BACK is its block of Gm. -/
theorem flushed_m (c : Dev nD) (t : Fin cfg2.N) (hf : (cfg2.win 3).flush t = true) :
    (dat2 V c).flushed 3 t = ((cfg2.win 3).blk t).view.read (Elt Ideal) (Gm V c) := by
  have h1 : t.val % 8 = 7 := (flush2_3 t).mp hf
  have h0 : ¬t.val % 8 = 0 := by omega
  have hN : t.val < 256 := lt_of_lt_of_eq t.isLt N_2
  show (cfg2.win 3).cut (grid2.coords t) ((dat2 V c).after 3 t) = _
  rw [after2_3, oAt2_C V c t h0 h1, out2_C_3_eq, ← sAt2_pay V c t h0]
  funext j
  obtain ⟨p, q, rfl⟩ : ∃ (p q : Fin 1024), j = ix2 p q := ⟨j 0, j 1, eq_ix2 j⟩
  refine (Cert.KernelIdeal.Pay.pay_bias _ _ p q).trans ?_
  rw [s_sum V c 7 t h1 p q, bl_total, blk2_read]
  obtain ⟨-, -, -, -, -, -, e6, e7⟩ := idx_facts_m t
  have hemb : ((cfg2.win 3).blk t).view.emb (ix2 p q)
      = ix2 (n0 := 8192) (n1 := 4096) ⟨t.val / 32 * 1024 + p.val, by omega⟩ ⟨t.val / 8 % 4 * 1024 + q.val, by omega⟩ := by
    funext a; apply Fin.ext
    match a with
    | ⟨0, _⟩ => show win2_3.index t (0 : Fin 2) * 1024 + 1 * p.val = t.val / 32 * 1024 + p.val; rw [e6]; omega
    | ⟨1, _⟩ => show win2_3.index t (1 : Fin 2) * 1024 + 1 * q.val = t.val / 8 % 4 * 1024 + q.val; rw [e7]; omega
  show _ = rowSum (V c main_v0) (V c main_v1) (V c main_v2) (((cfg2.win 3).blk t).view.emb (ix2 p q))
  rw [hemb]
  unfold rowSum
  have e : t.val / 8 / 4 = t.val / 32 := by omega
  rw [e, rd_eq _ (by omega) (by omega)]
  refine congrArg (· + _) ?_
  exact Finset.sum_congr rfl fun kk _ => by rw [rd_eq _ (by omega) kk.isLt, rd_eq _ (by omega) kk.isLt]

/-- An index of the output array is in point t's block iff each coordinate is in the block's range on its axis. -/
theorem mem_blk_m (t : Fin cfg2.N) (i : S8192x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- Every index is in the block of the point (row / 1024, column / 1024, 7), which is written back. -/
theorem cover_m (i : S8192x4096.Idx) : ∃ t : Fin cfg2.N, (cfg2.win 3).flush t = true ∧ i ∈ ((cfg2.win 3).blk t).view.set := by
  have hi0 : (i 0).val < 8192 := (i 0).isLt
  have hi1 : (i 1).val < 4096 := (i 1).isLt
  have hN : cfg2.N = 256 := N_2
  have hlt : (i 0).val / 1024 * 32 + (i 1).val / 1024 * 8 + 7 < cfg2.N := by rw [hN]; omega
  refine ⟨⟨(i 0).val / 1024 * 32 + (i 1).val / 1024 * 8 + 7, hlt⟩, (flush2_3 _).mpr (by show ((i 0).val / 1024 * 32 + (i 1).val / 1024 * 8 + 7) % 8 = 7; omega), ?_⟩
  rw [mem_blk_m]
  obtain ⟨-, -, -, -, -, -, e6, e7⟩ := idx_facts_m ⟨(i 0).val / 1024 * 32 + (i 1).val / 1024 * 8 + 7, hlt⟩
  intro a
  match a with
  | ⟨0, _⟩ =>
    show win2_3.index ⟨(i 0).val / 1024 * 32 + (i 1).val / 1024 * 8 + 7, hlt⟩ (0 : Fin 2) * 1024 ≤ (i 0).val ∧ (i 0).val < win2_3.index ⟨(i 0).val / 1024 * 32 + (i 1).val / 1024 * 8 + 7, hlt⟩ (0 : Fin 2) * 1024 + 1024
    rw [e6]; show ((i 0).val / 1024 * 32 + (i 1).val / 1024 * 8 + 7) / 32 * 1024 ≤ (i 0).val ∧ (i 0).val < ((i 0).val / 1024 * 32 + (i 1).val / 1024 * 8 + 7) / 32 * 1024 + 1024; omega
  | ⟨1, _⟩ =>
    show win2_3.index ⟨(i 0).val / 1024 * 32 + (i 1).val / 1024 * 8 + 7, hlt⟩ (1 : Fin 2) * 1024 ≤ (i 1).val ∧ (i 1).val < win2_3.index ⟨(i 0).val / 1024 * 32 + (i 1).val / 1024 * 8 + 7, hlt⟩ (1 : Fin 2) * 1024 + 1024
    rw [e7]; show ((i 0).val / 1024 * 32 + (i 1).val / 1024 * 8 + 7) / 8 % 4 * 1024 ≤ (i 1).val ∧ (i 1).val < ((i 0).val / 1024 * 32 + (i 1).val / 1024 * 8 + 7) / 8 % 4 * 1024 + 1024; omega

/-- THE OUTPUT ARRAY after the pass. -/
theorem final_m (c : Dev nD) : (dat2 V c).arrAt 3 cfg2.N = Gm V c :=
  (dat2 V c).arrAt_eq_of_cover 3 _ (fun t hf => flushed_m V c t hf) (cover_m)

end Cert.KernelIdeal.Val

end
-- ==== Proof.BiasRow.lean ====
/-
  The bias as the kernel sees it.

  Before the matrix product runs, the program turns the bias vector of 4096 entries into a matrix with one row and 4096
  columns. Nothing is computed: the entries keep their order, and the entry in row 0, column q of the row matrix is the
  entry q of the vector. This holds whatever the other arrays contain, so it is stated for an arbitrary assignment of
  contents to the program's arrays.

  Two steps. First, what the one preparatory operation leaves in the row matrix is the vector recast to the shape
  1 × 4096 (the operation writes exactly that, and it is the only operation). Second, a recast reads its operand at the
  entry with the same position in row-major order, and position 0 · 4096 + q of the row matrix is position q of the
  vector.
-/
import proofs.«157190_j81063212745346_2_alg».proof.Proof.Gen.KernelIdeal.Launch
import Idealize.ShloMosaic.Lib.StableHlo.Run
import Idealize.ShloMosaic.Lib.ValueLayout
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx

/-- After the preparatory operation the row matrix holds the bias vector recast to one row. -/
theorem bias_row_array (W : Valuation τ sig (Elt Ideal)) :
    (StableHlo.after (hostOps2 (F := Ideal)) W (Proc.devRef .tc main_v2) : S1x4096.Idx → EReal)
      = shapeCast S1x4096 (W (Proc.devRef .tc main_arg2) : S4096.Idx → EReal) shapeCasts_S4096_S1x4096 := by
  dsimp only [hostOps2]
  after_results
  rfl

/-- The row matrix read at (0, q) is the bias vector read at q. -/
theorem bias_row (W : Valuation τ sig (Elt Ideal)) (q : Fin 4096) :
    (StableHlo.after hostOps2 W (Proc.devRef .tc main_v2) : S1x4096.Idx → EReal) (ix2 (n0 := 1) (n1 := 4096) (0 : Fin 1) q)
      = (W (Proc.devRef .tc main_arg2) : S4096.Idx → EReal) (ix1 (n := 4096) q) := by
  refine (congrFun (bias_row_array W) _).trans ?_
  exact shapeCast_a_1a_apply _ _ 0 q

end Cert.KernelIdeal.Val

end
-- ==== Proof.ValTop.lean ====
/-
  The kernel's program as a value at the ideal instance: its output array ends at the binarized dense layer of the
  three argument arrays. The matrix-product pass is entered with its first operand at the sign of the activation
  matrix (what the first binarizing pass left, untouched since), its second operand at the sign of the weight
  matrix (what the second pass left), and its bias row at the bias vector laid out as one row; so its result,
  (Σ_k X(i,k) · W(n,k)) + B(0,n), is (Σ_k sgn x(i,k) · sgn w(n,k)) + b(n).
-/
import proofs.«157190_j81063212745346_2_alg».proof.Proof.FrameI.Run
import proofs.«157190_j81063212745346_2_alg».proof.Proof.ValCast0
import proofs.«157190_j81063212745346_2_alg».proof.Proof.ValCast1
import proofs.«157190_j81063212745346_2_alg».proof.Proof.ValMat
import proofs.«157190_j81063212745346_2_alg».proof.Proof.BiasRow
import proofs.«157190_j81063212745346_2_alg».proof.Proof.Spec

set_option maxRecDepth 16384

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The first operand when the matrix-product pass is entered: the sign of the activation matrix. -/
theorem entry_v0 (c : Dev nD) : U3 m c main_v0 = sgA0 (m ((c : Thread nD τ).loc main_arg0)) :=
  calc U3 m c main_v0
    _ = W2 m c (Proc.devRef .tc main_v0) := W3_of m c main_v0 (by decide)
    _ = W1 m c (Proc.devRef .tc main_v0) := W2_of_ne m c main_v0 (by decide)
    _ = (dat0 (U0 m) c).arrAt 1 cfg0.N := W1_arr m c 1
    _ = sgA0 (U0 m c main_arg0) := final_c0 (U0 m) c
    _ = sgA0 (m ((c : Thread nD τ).loc main_arg0)) := rfl

/-- The second operand: the sign of the weight matrix. -/
theorem entry_v1 (c : Dev nD) : U3 m c main_v1 = sgA1 (m ((c : Thread nD τ).loc main_arg1)) :=
  calc U3 m c main_v1
    _ = W2 m c (Proc.devRef .tc main_v1) := W3_of m c main_v1 (by decide)
    _ = (dat1 (U1 m) c).arrAt 1 cfg1.N := W2_arr m c 1
    _ = sgA1 (U1 m c main_arg1) := final_c1 (U1 m) c
    _ = sgA1 (W0 m c (Proc.devRef .tc main_arg1)) := congrArg sgA1 (W1_of_ne m c main_arg1 (by decide))
    _ = sgA1 (m ((c : Thread nD τ).loc main_arg1)) := rfl

/-- The bias row at (0, q): the bias vector at q. -/
theorem entry_v2 (c : Dev nD) (q : Fin 4096) :
    U3 m c main_v2 (ix2 (n0 := 1) (n1 := 4096) (0 : Fin 1) q) = m ((c : Thread nD τ).loc main_arg2) (ix1 (n := 4096) q) :=
  calc U3 m c main_v2 (ix2 (n0 := 1) (n1 := 4096) (0 : Fin 1) q)
    _ = W2 m c (Proc.devRef .tc main_arg2) (ix1 (n := 4096) q) := bias_row (W2 m c) q
    _ = W1 m c (Proc.devRef .tc main_arg2) (ix1 (n := 4096) q) := congrFun (W2_of_ne m c main_arg2 (by decide)) _
    _ = W0 m c (Proc.devRef .tc main_arg2) (ix1 (n := 4096) q) := congrFun (W1_of_ne m c main_arg2 (by decide)) _
    _ = m ((c : Thread nD τ).loc main_arg2) (ix1 (n := 4096) q) := rfl

/-- THE OUTPUT ARRAY of the kernel's program: the specification's function of the three arguments. -/
theorem out_is_G (c : Dev nD) :
    (dat2 (U3 m) c).arrAt 3 cfg2.N
      = Cert.Spec.G (m ((c : Thread nD τ).loc main_arg0)) (m ((c : Thread nD τ).loc main_arg1)) (m ((c : Thread nD τ).loc main_arg2)) := by
  rw [final_m (U3 m) c]
  funext i
  show rowSum (U3 m c main_v0) (U3 m c main_v1) (U3 m c main_v2) i = _
  rw [entry_v0, entry_v1]
  unfold rowSum
  rw [entry_v2]
  rfl

end Cert.KernelIdeal.Val

end
-- ==== Proof.RefIsG.lean ====
/-
  The reference program computes the specification.

  The reference binarizes the activation matrix and the weight matrix entry by entry (an entry that is at least 0 becomes
  1, any other entry becomes -1), contracts the two binarized matrices along their second axes in one sweep over the
  4096 positions, and adds the bias vector to every row. Read at row p and column q this is
      (Σ_{k < 4096} sgn x(p,k) · sgn w(q,k)) + b(q),
  which is the specification's function G word for word: the comparison against the constant 0, the choice between the
  constants 1 and -1, the product, the sum over k, and the final addition are the same operations applied to the same
  entries. The only work is bookkeeping of indices: the contraction reads the left operand at (p, k) and the right
  operand at (q, k), and the bias, first laid out as one row of 4096 and then repeated down the 8192 rows, is read at q.
-/
import proofs.«157190_j81063212745346_2_alg».proof.Proof.Gen.ReferenceIdeal.Read
import proofs.«157190_j81063212745346_2_alg».proof.Proof.Spec

noncomputable section

namespace Cert.RefValue

open Cert.ReferenceIdeal Cert.ReferenceIdeal.Read Idealize.ShloMosaic Idealize.ShloMosaic.ValueIdx

/-- Entry (p, k) of the left operand: the contraction's left index at output position i and summation position k has
    first coordinate the row of i and second coordinate k. -/
theorem left_index (i : S8192x4096.Idx) (k : Fin 4096) :
    lidx_main_v8 i k = ix2 (n0 := 8192) (n1 := 4096) ⟨(i 0).val, (i 0).isLt⟩ k :=
  funext fun a => by match a with | ⟨0, _⟩ => rfl | ⟨1, _⟩ => rfl

/-- Entry (q, k) of the right operand: the contraction's right index at output position i and summation position k has
    first coordinate the column of i and second coordinate k. -/
theorem right_index (i : S8192x4096.Idx) (k : Fin 4096) :
    ridx_main_v8 i k = ix2 (n0 := 4096) (n1 := 4096) ⟨(i 1).val, (i 1).isLt⟩ k :=
  funext fun a => by match a with | ⟨0, _⟩ => rfl | ⟨1, _⟩ => rfl

/-- The bias is read at the column of i: laying the vector out as one row and repeating that row down the rows keeps
    the column coordinate and forgets the row. -/
theorem bias_index (i : S8192x4096.Idx) :
    idx_main_v9 (idx_main_v10 i) = ix1 (n := 4096) ⟨(i 1).val, (i 1).isLt⟩ :=
  funext fun a => by match a with | ⟨0, _⟩ => rfl

/-- The binarized activation entry at any index is the specification's sgn of the activation entry there. -/
theorem left_entry (x0 : (⟨S8192x4096, .f32⟩ : BufTy).Contents (Elt Ideal)) (j : S8192x4096.Idx) :
    val_main_v3 (F := Ideal) x0 j = Cert.Spec.sgn (x0 j) := by
  rw [val_main_v3_apply, val_main_v2_apply, val_main_v1_apply, val_main_v0_apply, val_main_cst_apply,
    val_main_call0_v0_apply, val_main_cst_0_apply, val_main_call0_v1_apply, val_main_cst_1_apply]
  rfl

/-- The binarized weight entry at any index is the specification's sgn of the weight entry there. -/
theorem right_entry (x1 : (⟨S4096x4096, .f32⟩ : BufTy).Contents (Elt Ideal)) (j : S4096x4096.Idx) :
    val_main_v7 (F := Ideal) x1 j = Cert.Spec.sgn (x1 j) := by
  rw [val_main_v7_apply, val_main_v6_apply, val_main_v5_apply, val_main_v4_apply, val_main_cst_2_apply,
    val_main_call1_v0_apply, val_main_cst_3_apply, val_main_call1_v1_apply, val_main_cst_4_apply]
  rfl

/-- The reference's result is the specification's function of the three arguments: at every position the one-sweep sum
    of products of binarized entries, plus the bias at the position's column. -/
theorem ref_is_G (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v11 (F := Ideal) x0 x1 x2 = Cert.Spec.G x0 x1 x2 := by
  funext i
  rw [val_main_v11_apply, val_main_v8_apply, val_main_v10_apply, val_main_v9_apply, bias_index, Ideal.addf_def]
  unfold Cert.Spec.G
  refine congrArg (fun s => s + x2 (ix1 (n := 4096) ⟨(i 1).val, (i 1).isLt⟩)) ?_
  refine Finset.sum_congr rfl fun k _ => ?_
  rw [left_entry, right_entry, left_index, right_index]

end Cert.RefValue

end
-- ==== Proof.lean ====
/-
  The certificate of the binarized dense layer: a kernel that binarizes its activation matrix x (8192 × 4096) and its
  weight matrix w (4096 × 4096) by sign in two elementwise passes, then forms sign(x) · sign(w)ᵀ + bias in a third
  pass that walks the contracted axis in 8 blocks of 512, accumulating in a buffer it keeps from grid point to grid
  point — against the reference, which binarizes, contracts in one sweep and adds the bias.

  The three frames: each program runs to the end from any memory, faults nowhere, and leaves its three argument
  arrays as launched (for the two kernel programs: the run of the three passes and the reshape of the bias between
  them, each pass changing only its own output array; for the reference: its straight-line run).
  The idealization changed no operation, so there is nothing to preserve.
  The two idealized programs compute the same function on the extended reals: both end with
  (Σ_{k < 4096} sgn x(p,k) · sgn w(q,k)) + b(q) at row p and column q. On the kernel's side this uses only that a
  sum over 4096 positions is the sum over 8 blocks of the sums over 512 positions, and 0 + a = a; no finiteness of the
  inputs is needed.
-/
import proofs.«157190_j81063212745346_2_alg».proof.Defs
import proofs.«157190_j81063212745346_2_alg».proof.Proof.Gen.Kernel
import proofs.«157190_j81063212745346_2_alg».proof.Proof.Gen.KernelIdeal
import proofs.«157190_j81063212745346_2_alg».proof.Proof.Gen.ReferenceIdeal
import proofs.«157190_j81063212745346_2_alg».proof.Proof.Gen.ReferenceIdeal.Run
import proofs.«157190_j81063212745346_2_alg».proof.Proof.Gen.ReferenceIdeal.Read
import proofs.«157190_j81063212745346_2_alg».proof.Proof.Gen.Pre_finite_inputs
import proofs.«157190_j81063212745346_2_alg».proof.Proof.FrameB.Run
import proofs.«157190_j81063212745346_2_alg».proof.Proof.FrameI.Run
import proofs.«157190_j81063212745346_2_alg».proof.Proof.ValTop
import proofs.«157190_j81063212745346_2_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_k [Cert.Kernel.Facts] [Cert.Pre_finite_inputs.Facts] : Cert.frame_Kernel := fun m ρ _ =>
  (θ_run Cert.Kernel.defs _ _).mono (fun _ h c => (h c).2) (Cert.Kernel.Hand.run (F := Bits) m ρ)

/-- The idealized kernel program runs, and its arguments end as launched. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run (F := Ideal) m ρ)

/-- The idealized reference runs, and its arguments end as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end at the binarized dense layer of their (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.out_is_G m c), (h c).2⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v11_eq, Cert.RefValue.ref_is_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
